-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x256 : Shape := ⟨2, ![2048, 256]⟩
abbrev S256 : Shape := ⟨1, ![256]⟩
abbrev S256x2048 : Shape := ⟨2, ![256, 2048]⟩
abbrev S2048 : Shape := ⟨1, ![2048]⟩
abbrev S256x256 : Shape := ⟨2, ![256, 256]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S2048 .f32) (main_arg5 : FVec F S256x256 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S8192x2048 .f32) (main_arg1 : FVec F S2048x256 .f32) (main_arg2 : FVec F S256 .f32) (main_arg3 : FVec F S256x2048 .f32) (main_arg4 : FVec F S2048 .f32) (main_arg5 : FVec F S256x256 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_v13 main_v16
-- ==== Kernel.lean ====
abbrev S8192x2048 : Shape := ⟨2, ![8192, 2048]⟩
abbrev S2048x256 : Shape := ⟨2, ![2048, 256]⟩
abbrev S256 : Shape := ⟨1, ![256]⟩
abbrev S256x2048 : Shape := ⟨2, ![256, 2048]⟩
abbrev S2048 : Shape := ⟨1, ![2048]⟩
abbrev S256x256 : Shape := ⟨2, ![256, 256]⟩
abbrev S_ : Shape := ⟨0, ![]⟩
abbrev S1x256 : Shape := ⟨2, ![1, 256]⟩
abbrev S256x8192 : Shape := ⟨2, ![256, 8192]⟩
abbrev S512x2048 : Shape := ⟨2, ![512, 2048]⟩
abbrev S256x512 : Shape := ⟨2, ![256, 512]⟩
abbrev S512x256 : Shape := ⟨2, ![512, 256]⟩
abbrev S1x2048 : Shape := ⟨2, ![1, 2048]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x256, .f32⟩
  | .hbm, ⟨2, _⟩ => ⟨S256, .f32⟩
  | .hbm, ⟨3, _⟩ => ⟨S256x2048, .f32⟩
  | .hbm, ⟨4, _⟩ => ⟨S2048, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S256x2048, .bf16⟩
  | .hbm, ⟨11, _⟩ => ⟨S256x8192, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x256, .f32⟩
  | .local _ .vmem, ⟨3, _⟩ => ⟨S256, .f32⟩
  | .local _ .vmem, ⟨4, _⟩ => ⟨S256x2048, .bf16⟩
  | .local _ .vmem, ⟨5, _⟩ => ⟨S2048, .f32⟩
  | .local _ .vmem, ⟨6, _⟩ => ⟨S256x256, .f32⟩
  | .local _ .vmem, ⟨7, _⟩ => ⟨S1x256, .f32⟩
  | .local _ .vmem, ⟨8, _⟩ => ⟨S256x512, .f32⟩
  | .local _ .vmem, ⟨9, _⟩ => ⟨S256x512, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S256x256_S256_d1 : S256x256.ReducesTo [1] S256
  h_S_ : 0 < S_.numel
  shapeCasts_S256_S1x256 : S256.ShapeCasts S1x256
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x256_S2048x256_0_0 : ∀ a, (![0, 0] : Fin 2 → Nat) a + S2048x256.size a ≤ S2048x256.size a
  h_S2048x256 : 0 < S2048x256.numel
  inb_S256_S256_0 : ∀ a, (![0] : Fin 1 → Nat) a + S256.size a ≤ S256.size a
  h_S256 : 0 < S256.numel
  broadcasts_S1x256_S512x256 : S1x256.Broadcasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S256x256_S256x256_0_0 : ∀ a, (![0, 0] : Fin 2 → Nat) a + S256x256.size a ≤ S256x256.size a
  h_S256x256 : 0 < S256x256.numel
  reduces_S512x256_S512 : S512x256.Reduces [1] S512
  shapeCasts_S512_S512x1 : S512.ShapeCasts S512x1
  broadcasts_S512x1_S512x256 : S512x1.Broadcasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S512x256_p1_0_S256x512 : S512x256.Transposes [1, 0] S256x512
  inb_S256x512_S256x512_0_0 : ∀ a, (![0, 0] : Fin 2 → Nat) a + S256x512.size a ≤ S256x512.size a
  h_S256x512 : 0 < S256x512.numel
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x8192.size a
  hwx0_7 : ∀ i : grid0.Coords, EltTy.bits .f32 = 32 ∨ (Rect.block (s := S256x8192) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S8192x2048.size a
  hwx0_8 : ∀ i : grid0.Coords, EltTy.bits .f32 = 32 ∨ (Rect.block (s := S8192x2048) S512x2048.size (cc0_transform_8 i) (hinb0_8 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x256 : Shape := ⟨2, ![2048, 256]⟩
abbrev S256 : Shape := ⟨1, ![256]⟩
abbrev S256x2048 : Shape := ⟨2, ![256, 2048]⟩
abbrev S2048 : Shape := ⟨1, ![2048]⟩
abbrev S256x256 : Shape := ⟨2, ![256, 256]⟩
abbrev S8192x256 : Shape := ⟨2, ![8192, 256]⟩
abbrev S1x256 : Shape := ⟨2, ![1, 256]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x256, .f32⟩
  | .hbm, ⟨2, _⟩ => ⟨S256, .f32⟩
  | .hbm, ⟨3, _⟩ => ⟨S256x2048, .f32⟩
  | .hbm, ⟨4, _⟩ => ⟨S2048, .f32⟩
  | .hbm, ⟨5, _⟩ => ⟨S256x256, .f32⟩
  | .hbm, ⟨6, _⟩ => ⟨S8192x256, .f32⟩
  | .hbm, ⟨7, _⟩ => ⟨S1x256, .f32⟩
  | .hbm, ⟨8, _⟩ => ⟨S8192x256, .f32⟩
  | .hbm, ⟨9, _⟩ => ⟨S8192x256, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S256x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S256x256, .f32⟩
  | .hbm, ⟨26, _⟩ => ⟨S_, .f32⟩
  | .hbm, ⟨27, _⟩ => ⟨S256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S256x8192, .f32⟩
  | .hbm, ⟨32, _⟩ => ⟨S_, .f32⟩
  | .hbm, ⟨33, _⟩ => ⟨S8192, .f32⟩
  | .hbm, ⟨34, _⟩ => ⟨S1x8192, .f32⟩
  | .hbm, ⟨35, _⟩ => ⟨S256x8192, .f32⟩
  | .hbm, ⟨36, _⟩ => ⟨S256x8192, .f32⟩
  | .hbm, ⟨37, _⟩ => ⟨S_, .f32⟩
  | .hbm, ⟨38, _⟩ => ⟨S256x8192, .f32⟩
  | .hbm, ⟨39, _⟩ => ⟨S256x8192, .f32⟩
  | .hbm, ⟨40, _⟩ => ⟨S256x8192, .f32⟩
  | .hbm, ⟨41, _⟩ => ⟨S_, .f32⟩
  | .hbm, ⟨42, _⟩ => ⟨S8192, .f32⟩
  | .hbm, ⟨43, _⟩ => ⟨S1x8192, .f32⟩
  | .hbm, ⟨44, _⟩ => ⟨S256x8192, .f32⟩
  | .hbm, ⟨45, _⟩ => ⟨S256x8192, .f32⟩
  | .hbm, ⟨46, _⟩ => ⟨S256x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S256x256_S256x256_1_0 : S256x256.Transposes [1, 0] S256x256
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  reducesTo_S256x256_S256_d1 : S256x256.ReducesTo [1] S256
  transposes_S8192x256_S256x8192_1_0 : S8192x256.Transposes [1, 0] S256x8192
  reducesTo_S256x8192_S8192_d0 : S256x8192.ReducesTo [0] S8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  bcast_S_S256x8192 : S_.BroadcastsInDim S256x8192 (![] : Fin 0 → Fin S256x8192.rank)
  dot_S8192x2048_S2048x256_S8192x256_1_0_0_1_n_n_wf : DotDims.WF S8192x2048 S2048x256 S8192x256 [1] [0] [0] [1] [] []
  dot_S8192x256_S256x2048_S8192x2048_1_0_0_1_n_n_wf : DotDims.WF S8192x256 S256x2048 S8192x2048 [1] [0] [0] [1] [] []
  dot_S8192x256_S256x256_S8192x256_1_0_0_1_n_n_wf : DotDims.WF S8192x256 S256x256 S8192x256 [1] [0] [0] [1] [] []

variable [Facts₀]

def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.RowSpec.lean ====
/-
  The mathematics of one row, on the extended reals.

  A row x of the input (2048 entries) is encoded to e = x·W_enc + b_enc (256 entries), decoded to e·W_dec + b_dec
  (2048 entries), and compared with the 256 cluster representatives c_k (the rows of C):
      dist_k = (‖e‖² − 2·⟨e, c_k⟩) + ‖c_k‖²,
  ‖e‖² and ‖c_k‖² being sums of squares.  The soft-minimum weighting of the distances is
      w_k = dist_k · ( exp(−1000·(dist_k − min_q dist_q)) / Σ_q exp(−1000·(dist_q − min_q dist_q)) ),
  the minimum taken from +∞.  The two results of the program are, for every row b of the input, the decoded row
  (entry (b, j) of the reconstruction) and the weights (entry (k, b) of the weighted distances: clusters along the first
  axis).  Every sum is a sum over a finite index type, so its order does not matter; nothing else is rearranged.
-/
import Idealize.ShloMosaic.PureOps.Ideal
import Idealize.ShloMosaic.Lib.ValueIdx

noncomputable section

namespace Cert.ClusterRows

open Idealize.ShloMosaic Idealize.ShloMosaic.ValueIdx

/-- The factor 2 of the cross term, as the programs write it. -/
abbrev two : EReal := Ideal.ofBits .f32 0x40000000#32
/-- The factor −1000 of the exponent, as the programs write it. -/
abbrev negAlpha : EReal := Ideal.ofBits .f32 0xC47A0000#32
/-- +∞, where the minimum starts. -/
abbrev posInf : EReal := Ideal.ofBits .f32 0x7F800000#32

/-- The encoded row: e_k = Σ_d x_d·W_enc(d, k) + b_enc(k). -/
def embRow (xr : Fin 2048 → EReal) (We : (⟨2, ![2048, 256]⟩ : Shape).Idx → EReal) (be : (⟨1, ![256]⟩ : Shape).Idx → EReal) :
    Fin 256 → EReal :=
  fun k => (∑ d : Fin 2048, xr d * We (ix2 d k)) + be (ix1 k)

/-- The decoded row: r_j = Σ_k e_k·W_dec(k, j) + b_dec(j). -/
def reconRow (e : Fin 256 → EReal) (Wd : (⟨2, ![256, 2048]⟩ : Shape).Idx → EReal) (bd : (⟨1, ![2048]⟩ : Shape).Idx → EReal) :
    Fin 2048 → EReal :=
  fun j => (∑ k : Fin 256, e k * Wd (ix2 k j)) + bd (ix1 j)

/-- The squared norm of each cluster representative: ‖c_k‖² = Σ_q C(k, q)². -/
def normSq (C : (⟨2, ![256, 256]⟩ : Shape).Idx → EReal) : Fin 256 → EReal :=
  fun k => ∑ q : Fin 256, C (ix2 k q) * C (ix2 k q)

/-- The squared distances of an encoded row to the representatives, in the expanded form
    (‖e‖² − 2·⟨e, c_k⟩) + n_k, with n the representatives' squared norms. -/
def distRow (e : Fin 256 → EReal) (C : (⟨2, ![256, 256]⟩ : Shape).Idx → EReal) (n : Fin 256 → EReal) : Fin 256 → EReal :=
  fun k => ((∑ q : Fin 256, e q * e q) - two * (∑ q : Fin 256, e q * C (ix2 k q))) + n k

/-- The least of 256 values, from +∞. -/
def rowMin (d : Fin 256 → EReal) : EReal := (Finset.univ : Finset (Fin 256)).fold min posInf d

/-- exp(−1000·(d_k − min d)). -/
def expRow (d : Fin 256 → EReal) : Fin 256 → EReal := fun k => Ideal.exp (negAlpha * (d k - rowMin d))

/-- The soft-minimum weighted distances: d_k · (expRow_k / Σ_q expRow_q). -/
def weightRow (d : Fin 256 → EReal) : Fin 256 → EReal :=
  fun k => d k * Ideal.div (expRow d k) (∑ q : Fin 256, expRow d q)

/-- Row b of the input. -/
abbrev rowOf {n : ℕ} (X : (⟨2, ![n, 2048]⟩ : Shape).Idx → EReal) (b : Fin n) : Fin 2048 → EReal := fun d => X (ix2 b d)

/-- The reconstruction at (b, j). -/
def reconAt (X : (⟨2, ![8192, 2048]⟩ : Shape).Idx → EReal) (We : (⟨2, ![2048, 256]⟩ : Shape).Idx → EReal)
    (be : (⟨1, ![256]⟩ : Shape).Idx → EReal) (Wd : (⟨2, ![256, 2048]⟩ : Shape).Idx → EReal) (bd : (⟨1, ![2048]⟩ : Shape).Idx → EReal)
    (b : Fin 8192) (j : Fin 2048) : EReal :=
  reconRow (embRow (rowOf X b) We be) Wd bd j

/-- The weighted distance at (k, b): cluster k, input row b. -/
def weightAt (X : (⟨2, ![8192, 2048]⟩ : Shape).Idx → EReal) (We : (⟨2, ![2048, 256]⟩ : Shape).Idx → EReal)
    (be : (⟨1, ![256]⟩ : Shape).Idx → EReal) (C : (⟨2, ![256, 256]⟩ : Shape).Idx → EReal) (k : Fin 256) (b : Fin 8192) : EReal :=
  weightRow (distRow (embRow (rowOf X b) We be) C (normSq C)) k

/-- The reconstruction, as an array [8192, 2048]. -/
def reconArr (X : (⟨2, ![8192, 2048]⟩ : Shape).Idx → EReal) (We : (⟨2, ![2048, 256]⟩ : Shape).Idx → EReal)
    (be : (⟨1, ![256]⟩ : Shape).Idx → EReal) (Wd : (⟨2, ![256, 2048]⟩ : Shape).Idx → EReal) (bd : (⟨1, ![2048]⟩ : Shape).Idx → EReal) :
    (⟨2, ![8192, 2048]⟩ : Shape).Idx → EReal :=
  fun i => reconAt X We be Wd bd (i 0) (i 1)

/-- The weighted distances, as an array [256, 8192]. -/
def weightArr (X : (⟨2, ![8192, 2048]⟩ : Shape).Idx → EReal) (We : (⟨2, ![2048, 256]⟩ : Shape).Idx → EReal)
    (be : (⟨1, ![256]⟩ : Shape).Idx → EReal) (C : (⟨2, ![256, 256]⟩ : Shape).Idx → EReal) :
    (⟨2, ![256, 8192]⟩ : Shape).Idx → EReal :=
  fun i => weightAt X We be C (i 0) (i 1)

end Cert.ClusterRows

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDotRhsT.lean ====
/-
  A matrix product with the right operand transposed, at the ideal values, read at an index.
  For the dimension numbers of an M×K by N×K product (`DotDims.transposedRhs M K N`: both operands contracted on their
  last axis, no batch axis) the kernel's `tpu.matmul` into a zero accumulator is, at the output index (a, b), the sum
  over k < K of l(a, k) · r(b, k) on the extended reals.
-/
import Idealize.ShloMosaic.PureOps.Ideal.Laws
import Idealize.ShloMosaic.Lib.ValueIdx

noncomputable section

namespace Cert.LibDotRhsT

open Idealize.ShloMosaic Idealize.ShloMosaic.ValueIdx

variable (M K N : Nat)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- The left operand's column is the contraction index. -/
theorem lhs1 (i : (⟨2, ![M, N]⟩ : Shape).Idx) (q : (DotDims.transposedRhs M K N).contr.Idx) :
    ((DotDims.transposedRhs M K N).lhsIdx i q 1).val
      = (q ⟨0, by rw [(DotDims.transposedRhs M K N).rank_contr]; exact Nat.one_pos⟩).val :=
  (DotDims.transposedRhs M K N).lhsIdx_val_of_single rfl i q

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The right operand's column is the contraction index. -/
theorem rhs1 (i : (⟨2, ![M, N]⟩ : Shape).Idx) (q : (DotDims.transposedRhs M K N).contr.Idx) :
    ((DotDims.transposedRhs M K N).rhsIdx i q 1).val
      = (q ⟨0, by rw [(DotDims.transposedRhs M K N).rank_contr]; exact Nat.one_pos⟩).val :=
  (DotDims.transposedRhs M K N).rhsIdx_val_of_single rfl i q

/-- The contraction's sum, re-indexed by k < K. -/
theorem sum_rhsT {φ₁ φ₂ : FTy} (l : FVec Ideal ⟨2, ![M, K]⟩ φ₁) (r : FVec Ideal ⟨2, ![N, K]⟩ φ₂) (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs0 M K N _ _
      | ⟨1, _⟩ => exact (lhs1 M K N _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs0 M K N _ _
      | ⟨1, _⟩ => exact (rhs1 M K N _ _).trans hk)
  exact congr (congrArg HMul.hMul (congrArg l el)) (congrArg r er)

/-- The kernel's product into a zero accumulator, at an index. -/
theorem matmul_rhsT {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    matmul (F := Ideal) (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_rhsT M K N l r j)

end Cert.LibDotRhsT

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibRowMin.lean ====
/-
  Minimum reductions of a matrix, at the ideal values, and sums down its columns.
  * For an [a, b] matrix reduced along its second axis into a vector of length a, a minimum reduction reads, at r, the
    fold of min over k < b of the entries (r, k), started from the accumulator's value.
  * The host's sum along the rows reads, at r, the initial value plus the sum over k < b of the entries (r, k).
  * For an [a, b] matrix reduced along its FIRST axis into a vector of length b: the index of the matrix that lies over
    position c of the vector with k inserted on the reduced axis is (k, c); the host's minimum reduction reads, at c, the
    fold of min over k < a of the entries (k, c), started from the initial value; the host's sum reads, at c, the initial
    value plus the sum over k < a of the entries (k, c).
-/
import Idealize.ShloMosaic.PureOps.Ideal.Laws
import Idealize.ShloMosaic.PureOps.Reduce
import Idealize.ShloMosaic.Lib.ValueIdx

noncomputable section

namespace Cert.LibRowMin

open Idealize.ShloMosaic Idealize.ShloMosaic.ValueIdx

/-- Over position `r` of the reduced vector, with `k` on the reduced (second) axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The minimum along a row: at `r`, the fold of `min` over the row's entries from the accumulator's value. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_eq_fold src acc h hφ hacc (ix1 r)).trans ?_
  refine (h.fold_filter_drop_single FloatOps.minimumf (FloatOps.ofBits φ acc) src (ix1 r)).trans ?_
  exact congrArg (Finset.fold min (Ideal.ofBits φ acc) · (Finset.univ : Finset (Fin b)))
    (funext fun k => congrArg src (lift_row h r k))

/-- The host's sum along a row: at `r`, the initial value plus the sum over the row's entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduceAdd x init h' hu (ix1 r) = init (Shape.Idx.first hu) + ∑ k : Fin b, x (ix2 r k) :=
  (Ideal.hostReduceAdd_single h' h x (init (Shape.Idx.first hu)) (ix1 r)).trans
    (congrArg (init (Shape.Idx.first hu) + ·) (Finset.sum_congr rfl fun k _ => congrArg x (lift_row h r k)))

/-- The host's minimum down a column: at `c`, the fold of `min` over the column's entries from the initial value. -/
theorem hostColMin_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩) (hu : 0 < u.numel) (c : Fin b) :
    Host.reduce FloatOps.minimumf x init h' hu (ix1 c)
      = (Finset.univ : Finset (Fin a)).fold min (init (Shape.Idx.first hu)) (fun k => x (ix2 k c)) := by
  refine (Host.reduce_eq_fold_single FloatOps.minimumf x init h' h hu (ix1 c)).trans ?_
  exact congrArg (Finset.fold min (init (Shape.Idx.first hu)) · (Finset.univ : Finset (Fin a)))
    (funext fun k => congrArg x (lift_col h c k))

end Cert.LibRowMin

end
-- ==== Proof.KernelRows.lean ====
/-
  What the kernel's body computes on one block of 512 rows, read one row at a time.

  The body's values are named by the generated payload terms over its loads: the x-block v0 [512, 2048], W_enc, b_enc,
  W_dec (already narrowed), b_dec, the representatives C, and the row of their squared norms [1, 256].  Read at row p of
  the block they are the row formulas of RowSpec applied to row p of the x-block: the encoder product plus bias (embRow),
  the decoder product plus bias (reconRow), the expanded squared distances (distRow), and the soft-minimum weights
  (weightRow), the last stored transposed: entry (k, p) of the stored block is weight k of row p.
  A change of float format is the identity on the extended reals, a product into a zero accumulator is the plain sum of
  products, a lane sum is the sum over the lane index and a lane minimum the fold of min from +∞.
-/
import proofs.«116325_j31370441130520_2_alg».proof.Proof.Gen.KernelIdeal.Skeleton
import proofs.«116325_j31370441130520_2_alg».proof.Proof.ValuePatched
import proofs.«116325_j31370441130520_2_alg».proof.Proof.RowSpec
import proofs.«116325_j31370441130520_2_alg».proof.Proof.LibColumn
import proofs.«116325_j31370441130520_2_alg».proof.Proof.LibPlainDot
import proofs.«116325_j31370441130520_2_alg».proof.Proof.LibDotRhsT
import proofs.«116325_j31370441130520_2_alg».proof.Proof.LibRowReduce
import proofs.«116325_j31370441130520_2_alg».proof.Proof.LibRowMin
import Idealize.ShloMosaic.Lib.ValueLayout
import Idealize.ShloMosaic.Lib.Pipeline.Value

noncomputable section

namespace Cert.KernelIdeal.Rows

open Cert.KernelIdeal Cert.KernelIdeal.Gen Cert.ClusterRows Idealize.ShloMosaic Idealize.ShloMosaic.ValueIdx

/-- The encoder's value at row `p` of the block: the encoded row of that row of the x-block. -/
theorem pay2_apply (v0 : Vec Ideal S512x2048 .f32) (v1 : Vec Ideal S2048x256 .f32) (v3 : Vec Ideal S256 .f32)
    (p : Fin 512) (k : Fin 256) :
    k0_pay2 (F := Ideal) v0 v1 v3 (ix2 p k) = embRow (rowOf v0 p) v1 v3 k := by
  unfold k0_pay2 embRow
  refine (addf_apply _ _ _).trans ?_
  refine congr (congrArg HAdd.hAdd ?_) ?_
  · exact Cert.LibPlainDot.matmul_plain 512 2048 256 (some .fp32) v0 v1 (ix2 p k)
  · exact (broadcastTo_1b_ab_apply _ _ p k).trans (shapeCast_a_1a_apply v3 _ 0 k)

/-- The decoder's value at row `p` of the block: the decoded row of the encoded row; narrowing the encoded row and
    re-casting the decoder matrix to its own shape change nothing. -/
theorem pay3_apply (v0 : Vec Ideal S512x2048 .f32) (v1 : Vec Ideal S2048x256 .f32) (v3 : Vec Ideal S256 .f32)
    (v8 : Vec Ideal S256x2048 .bf16) (v11 : Vec Ideal S2048 .f32) (p : Fin 512) (j : Fin 2048) :
    k0_pay3 (F := Ideal) v0 v1 v3 v8 v11 (ix2 p j) = reconRow (embRow (rowOf v0 p) v1 v3) v8 v11 j := by
  unfold k0_pay3 reconRow
  refine (addf_apply _ _ _).trans ?_
  refine congr (congrArg HAdd.hAdd ?_) ?_
  · refine (Cert.LibPlainDot.matmul_plain 512 256 2048 none _ _ (ix2 p j)).trans ?_
    refine Finset.sum_congr rfl fun k _ => ?_
    refine congr (congrArg HMul.hMul ?_) ?_
    · exact pay2_apply v0 v1 v3 p k
    · exact congrFun (shapeCast_self v8 _) (ix2 k j)
  · exact (broadcastTo_1b_ab_apply _ _ p j).trans (shapeCast_a_1a_apply v11 _ 0 j)

/-- The squared distances at row `p` of the block: those of the encoded row to the representatives `v16`, with the
    squared norms read from the one-row array `v25`. -/
theorem pay4_apply (v0 : Vec Ideal S512x2048 .f32) (v1 : Vec Ideal S2048x256 .f32) (v3 : Vec Ideal S256 .f32)
    (v16 : Vec Ideal S256x256 .f32) (v25 : Vec Ideal S1x256 .f32) (p : Fin 512) (k : Fin 256) :
    k0_pay4 (F := Ideal) v0 v1 v3 v16 v25 (ix2 p k)
      = distRow (embRow (rowOf v0 p) v1 v3) v16 (fun q => v25 (ix2 (0 : Fin 1) q)) k := by
  unfold k0_pay4 distRow
  refine (addf_apply _ _ _).trans ?_
  refine congr (congrArg HAdd.hAdd ?_) ?_
  · refine (subf_apply _ _ _).trans ?_
    refine congr (congrArg HSub.hSub ?_) ?_
    · refine (Cert.LibColumn.broadcastTo_a1_ab_apply _ _ p k).trans ?_
      refine (Cert.LibColumn.shapeCast_a_a1_apply _ _ p 0).trans ?_
      refine (Cert.LibRowReduce.rowSum_apply _ _ _ _ _ p).trans ?_
      refine Finset.sum_congr rfl fun q _ => ?_
      refine (mulf_apply _ _ _).trans ?_
      rw [pay2_apply v0 v1 v3 p q]
    · refine (mulf_apply _ _ _).trans ?_
      refine congr (congrArg HMul.hMul rfl) ?_
      refine (Cert.LibDotRhsT.matmul_rhsT 512 256 256 (some .fp32) _ v16 (ix2 p k)).trans ?_
      refine Finset.sum_congr rfl fun q _ => ?_
      exact congrArg (· * v16 (ix2 k q)) (pay2_apply v0 v1 v3 p q)
  · exact (broadcastTo_1b_ab_apply _ _ p k).trans (congrFun (shapeCast_self v25 _) (ix2 (0 : Fin 1) k))

/-- The stored block of weighted distances at (k, p) — cluster k, row p of the block — is weight k of the distances of
    row p: the block is the transpose of the [512, 256] array of weights, the minimum and the normalising sum are taken
    along each row. -/
theorem E7_apply (P0 : Vec Ideal S512x2048 .f32) (P1 : Vec Ideal S2048x256 .f32) (P2 : Vec Ideal S256 .f32)
    (P3 : Vec Ideal S256x256 .f32) (P4 : Vec Ideal S1x256 .f32) (k : Fin 256) (p : Fin 512) :
    Cert.KernelIdeal.ValueP.E7 (F := Ideal) P0 P1 P2 P3 P4 (ix2 k p)
      = weightRow (distRow (embRow (rowOf P0 p) P1 P2) P3 (fun q => P4 (ix2 (0 : Fin 1) q))) k := by
  have e0 : Cert.KernelIdeal.ValueP.ix7_0 (ix2 k p) = ix2 p k :=
    funext fun a => Fin.ext (by match a with | ⟨0, _⟩ => rfl | ⟨1, _⟩ => rfl)
  have e1 : Cert.KernelIdeal.ValueP.ix7_1 (ix2 k p) = ix2 p k :=
    funext fun a => Fin.ext (by match a with | ⟨0, _⟩ => rfl | ⟨1, _⟩ => rfl)
  have e2 : Cert.KernelIdeal.ValueP.ix7_2 (ix2 k p) = ix1 p :=
    funext fun a => Fin.ext (by match a with | ⟨0, _⟩ => rfl)
  have e3 : Cert.KernelIdeal.ValueP.ix7_3 (ix2 k p) = ix1 p :=
    funext fun a => Fin.ext (by match a with | ⟨0, _⟩ => rfl)
  have hd : ∀ q : Fin 256, k0_pay4 (F := Ideal) P0 P1 P2 P3 P4 (ix2 p q)
      = distRow (embRow (rowOf P0 p) P1 P2) P3 (fun q => P4 (ix2 (0 : Fin 1) q)) q := fun q => pay4_apply P0 P1 P2 P3 P4 p q
  have hmin : multiReduction .minimumf [1] S512 (k0_pay4 (F := Ideal) P0 P1 P2 P3 P4) 0x7F800000#32 reduces_S512x256_S512 (.inl rfl) rfl (ix1 p)
      = rowMin (distRow (embRow (rowOf P0 p) P1 P2) P3 (fun q => P4 (ix2 (0 : Fin 1) q))) := by
    refine (Cert.LibRowMin.rowMin_apply _ _ _ _ _ p).trans ?_
    unfold rowMin
    exact congrArg (Finset.fold min posInf · (Finset.univ : Finset (Fin 256))) (funext hd)
  have hsum : multiReduction .add [1] S512 (exp (mulf (broadcast S512x256 (Scalar.ofBits .f32 0xC47A0000#32)) (subf (k0_pay4 (F := Ideal) P0 P1 P2 P3 P4) (broadcastTo S512x256 (shapeCast S512x1 (multiReduction .minimumf [1] S512 (k0_pay4 P0 P1 P2 P3 P4) 0x7F800000#32 reduces_S512x256_S512 (.inl rfl) rfl) shapeCasts_S512_S512x1) broadcasts_S512x1_S512x256)))) 0x00000000#32 reduces_S512x256_S512 (.inl rfl) rfl (ix1 p)
      = ∑ q : Fin 256, expRow (distRow (embRow (rowOf P0 p) P1 P2) P3 (fun q => P4 (ix2 (0 : Fin 1) q))) q := by
    refine (Cert.LibRowReduce.rowSum_apply _ _ _ _ _ p).trans ?_
    refine Finset.sum_congr rfl fun q _ => ?_
    have hb := (Cert.LibColumn.broadcastTo_a1_ab_apply (shapeCast S512x1 (multiReduction .minimumf [1] S512 (k0_pay4 (F := Ideal) P0 P1 P2 P3 P4) 0x7F800000#32 reduces_S512x256_S512 (.inl rfl) rfl) shapeCasts_S512_S512x1) broadcasts_S512x1_S512x256 p q).trans
      ((Cert.LibColumn.shapeCast_a_a1_apply _ _ p 0).trans hmin)
    show Ideal.exp (negAlpha * (k0_pay4 (F := Ideal) P0 P1 P2 P3 P4 (ix2 p q) - broadcastTo S512x256 (shapeCast S512x1 (multiReduction .minimumf [1] S512 (k0_pay4 (F := Ideal) P0 P1 P2 P3 P4) 0x7F800000#32 reduces_S512x256_S512 (.inl rfl) rfl) shapeCasts_S512_S512x1) broadcasts_S512x1_S512x256 (ix2 p q))) = _
    rw [hd q, hb]
    rfl
  show FloatOps.mulf ((k0_pay4 (F := Ideal) P0 P1 P2 P3 P4) (Cert.KernelIdeal.ValueP.ix7_0 (ix2 k p))) _ = _
  rw [e0, e1, e2, e3, hd k, hmin, hsum]
  rfl

theorem zero2 : (![0, 0] : Fin 2 → Nat) = fun _ => 0 := funext fun a => by fin_cases a <;> rfl
theorem zero1 : (![0] : Fin 1 → Nat) = fun _ => 0 := funext fun a => by fin_cases a; rfl

/-- What the body leaves in the staging buffer of the weighted distances, from the input blocks: at (k, p), weight k of
    the distances of row p of the x-block (the loads read their whole buffers, the one store covers its buffer). -/
theorem out7_apply (x0 : Vec Ideal S512x2048 .f32) (x1 : Vec Ideal S2048x256 .f32) (x2 : Vec Ideal S256 .f32)
    (x3 : Vec Ideal S256x2048 .bf16) (x4 : Vec Ideal S2048 .f32) (x5 : Vec Ideal S256x256 .f32) (x6 : Vec Ideal S1x256 .f32)
    (k : Fin 256) (p : Fin 512) :
    out0_7 (F := Ideal) x0 x1 x2 x3 x4 x5 x6 (ix2 k p)
      = weightRow (distRow (embRow (rowOf x0 p) x1 x2) x5 (fun q => x6 (ix2 (0 : Fin 1) q))) k := by
  unfold out0_7
  refine (Cert.KernelIdeal.ValueP.canon7_eq _ _ _ _ _ (ix2 k p)).trans ?_
  rw [View.ld_unit_zero (S := S512x2048) zero2, View.ld_unit_zero (S := S2048x256) zero2, View.ld_unit_zero (S := S256) zero1,
    View.ld_unit_zero (S := S256x256) zero2, View.ld_unit_zero (S := S1x256) zero2]
  exact E7_apply x0 x1 x2 x5 x6 k p

/-- What the body leaves in the staging buffer of the reconstruction: at (p, j), entry j of the decoded row p. -/
theorem out8_apply (x0 : Vec Ideal S512x2048 .f32) (x1 : Vec Ideal S2048x256 .f32) (x2 : Vec Ideal S256 .f32)
    (x3 : Vec Ideal S256x2048 .bf16) (x4 : Vec Ideal S2048 .f32) (x5 : Vec Ideal S256x256 .f32) (x6 : Vec Ideal S1x256 .f32)
    (p : Fin 512) (j : Fin 2048) :
    out0_8 (F := Ideal) x0 x1 x2 x3 x4 x5 x6 (ix2 p j) = reconRow (embRow (rowOf x0 p) x1 x2) x3 x4 j := by
  unfold out0_8
  rw [View.canon_unit_zero zero2]
  rw [View.ld_unit_zero (S := S512x2048) zero2, View.ld_unit_zero (S := S2048x256) zero2, View.ld_unit_zero (S := S256) zero1,
    View.ld_unit_zero (S := S256x2048) zero2, View.ld_unit_zero (S := S2048) zero1]
  exact pay3_apply x0 x1 x2 x3 x4 p j

end Cert.KernelIdeal.Rows

end
-- ==== Proof.KernelBlocks.lean ====
/-
  From blocks to arrays: what the kernel's run leaves in its two result arrays.

  The grid has 16 points; point t works on rows 512·t … 512·t + 511 of the input.  Its x-block is those rows of x; the
  other six operands are whole arrays staged once: W_enc, b_enc, b_dec and the representatives C as launched, W_dec
  after the host narrowed it (the same extended reals), and the one-row array of the representatives' squared norms
  the host computed (0 + Σ_q C(k, q)², the sum of RowSpec).  So what point t writes back is, for the reconstruction,
  rows 512·t … of the array of decoded rows, and for the weighted distances, columns 512·t … of the array of weights
  (clusters along the rows).  The 16 row blocks tile the first array and the 16 column blocks the second, so after
  the run each result array is that one function of the argument arrays everywhere.
-/
import proofs.«116325_j31370441130520_2_alg».proof.Proof.ValuePatched
import proofs.«116325_j31370441130520_2_alg».proof.Proof.RowSpec
import proofs.«116325_j31370441130520_2_alg».proof.Proof.KernelRows
import proofs.«116325_j31370441130520_2_alg».proof.Proof.LibRowMin
import Idealize.ShloMosaic.Lib.StableHlo.Run
import Idealize.ShloMosaic.Lib.Pipeline.Value
import Idealize.ShloMosaic.Lib.ValueLayout

noncomputable section

namespace Cert.KernelIdeal.Blocks

open Cert.KernelIdeal Cert.KernelIdeal.Gen Cert.KernelIdeal.Rows Cert.ClusterRows
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- Where each window's block sits at point `t`: the x-block and the reconstruction's block at row block `t`, the
    weighted distances' block at column block `t`, every other window at its whole array. Decided over the 16 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val
    ∧ win0_8.index t (0 : Fin 2) = t.val ∧ win0_8.index t (1 : Fin 2) = 0 :=
  (by decide +kernel : ∀ t : Fin grid0.N, _)

/-! ## The two arrays the host wrote before the region -/

/-- The narrowed decoder matrix holds the same extended reals as the argument. -/
theorem V_wdec (c : Dev nD) :
    (V m c main_v3 : S256x2048.Idx → EReal) = (m ((c : Thread nD τ).loc main_arg3) : S256x2048.Idx → EReal) := by
  dsimp only [Gen.V, Gen.hostOps0]
  after_results
  rfl

/-- The one-row array of squared norms is the row sums of C·C (from the zero the sum starts at), cast to one row. -/
theorem V_norms (c : Dev nD) :
    (V m c main_v2 : S1x256.Idx → EReal)
      = shapeCast S1x256 (Host.reduceAdd (F := Ideal) (mulf (m ((c : Thread nD τ).loc main_arg5)) (m ((c : Thread nD τ).loc main_arg5)))
          (constant (F := Ideal) S_ .f32 0x00000000#32) reducesTo_S256x256_S256_d1 h_S_) shapeCasts_S256_S1x256 := by
  dsimp only [Gen.V, Gen.hostOps0]
  after_results
  rfl

/-- So its entry (0, q) is the squared norm of representative q. -/
theorem V_norms_apply (c : Dev nD) (q : Fin 256) :
    (V m c main_v2 : S1x256.Idx → EReal) (ix2 (0 : Fin 1) q) = normSq (m ((c : Thread nD τ).loc main_arg5)) q := by
  rw [V_norms]
  refine (shapeCast_a_1a_apply _ _ 0 q).trans ?_
  refine (Cert.LibRowMin.hostRowSum_apply _ _ _ (by decide) _ q).trans ?_
  unfold normSq
  show Ideal.ofBits .f32 0x00000000#32 + _ = _
  rw [Ideal.ofBits_zero_f32, zero_add]
  rfl

/-! ## The input windows' blocks at point `t` -/

/-- Row `p` of the x-block at point `t` is row `512·t + p` of x. -/
theorem xblock_row (c : Dev nD) (t : Fin cfg0.N) (p : Fin 512) (b : Fin 8192) (hb : b.val = 512 * t.val + p.val) :
    rowOf (iblk m c 0 t : Vec Ideal S512x2048 .f32) p = rowOf (m ((c : Thread nD τ).loc main_arg0) : S8192x2048.Idx → EReal) b := by
  obtain ⟨h0, h1, -⟩ := idx_facts t
  funext d
  show (iblk m c 0 t : Vec Ideal S512x2048 .f32) (ix2 p d) = _
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = b.val; rw [h0, hb]; omega
  | ⟨1, _⟩ => show win0_0.index t (1 : Fin 2) * 2048 + 1 * d.val = d.val; rw [h1]; omega

/-- The W_enc window's block is W_enc. -/
theorem wenc_block (c : Dev nD) (t : Fin cfg0.N) :
    (iblk m c 1 t : Vec Ideal S2048x256 .f32) = (m ((c : Thread nD τ).loc main_arg1) : S2048x256.Idx → EReal) := by
  obtain ⟨-, -, h0, h1, -⟩ := idx_facts t
  funext y
  unfold iblk
  rw [View.read_apply]
  show V m c main_arg1 _ = _
  rw [V_main_arg1]
  refine congrArg _ (funext fun a => Fin.ext ?_)
  match a with
  | ⟨0, _⟩ => show win0_1.index t (0 : Fin 2) * 2048 + 1 * (y 0).val = (y 0).val; rw [h0]; omega
  | ⟨1, _⟩ => show win0_1.index t (1 : Fin 2) * 256 + 1 * (y 1).val = (y 1).val; rw [h1]; omega

/-- The b_enc window's block is b_enc. -/
theorem benc_block (c : Dev nD) (t : Fin cfg0.N) :
    (iblk m c 2 t : Vec Ideal S256 .f32) = (m ((c : Thread nD τ).loc main_arg2) : S256.Idx → EReal) := by
  obtain ⟨-, -, -, -, h0, -⟩ := idx_facts t
  funext y
  unfold iblk
  rw [View.read_apply]
  show V m c main_arg2 _ = _
  rw [V_main_arg2]
  refine congrArg _ (funext fun a => Fin.ext ?_)
  match a with
  | ⟨0, _⟩ => show win0_2.index t (0 : Fin 1) * 256 + 1 * (y 0).val = (y 0).val; rw [h0]; omega

/-- The decoder matrix's window's block holds W_dec. -/
theorem wdec_block (c : Dev nD) (t : Fin cfg0.N) :
    (iblk m c 3 t : S256x2048.Idx → EReal) = (m ((c : Thread nD τ).loc main_arg3) : S256x2048.Idx → EReal) := by
  obtain ⟨-, -, -, -, -, h0, h1, -⟩ := idx_facts t
  funext y
  unfold iblk
  rw [View.read_apply]
  show (V m c main_v3 : S256x2048.Idx → EReal) _ = _
  rw [V_wdec]
  refine congrArg _ (funext fun a => Fin.ext ?_)
  match a with
  | ⟨0, _⟩ => show win0_3.index t (0 : Fin 2) * 256 + 1 * (y 0).val = (y 0).val; rw [h0]; omega
  | ⟨1, _⟩ => show win0_3.index t (1 : Fin 2) * 2048 + 1 * (y 1).val = (y 1).val; rw [h1]; omega

/-- The b_dec window's block is b_dec. -/
theorem bdec_block (c : Dev nD) (t : Fin cfg0.N) :
    (iblk m c 4 t : Vec Ideal S2048 .f32) = (m ((c : Thread nD τ).loc main_arg4) : S2048.Idx → EReal) := by
  obtain ⟨-, -, -, -, -, -, -, h0, -⟩ := idx_facts t
  funext y
  unfold iblk
  rw [View.read_apply]
  show V m c main_arg4 _ = _
  rw [V_main_arg4]
  refine congrArg _ (funext fun a => Fin.ext ?_)
  match a with
  | ⟨0, _⟩ => show win0_4.index t (0 : Fin 1) * 2048 + 1 * (y 0).val = (y 0).val; rw [h0]; omega

/-- The representatives' window's block is C. -/
theorem reps_block (c : Dev nD) (t : Fin cfg0.N) :
    (iblk m c 5 t : Vec Ideal S256x256 .f32) = (m ((c : Thread nD τ).loc main_arg5) : S256x256.Idx → EReal) := by
  obtain ⟨-, -, -, -, -, -, -, -, h0, h1, -⟩ := idx_facts t
  funext y
  unfold iblk
  rw [View.read_apply]
  show V m c main_arg5 _ = _
  rw [V_main_arg5]
  refine congrArg _ (funext fun a => Fin.ext ?_)
  match a with
  | ⟨0, _⟩ => show win0_5.index t (0 : Fin 2) * 256 + 1 * (y 0).val = (y 0).val; rw [h0]; omega
  | ⟨1, _⟩ => show win0_5.index t (1 : Fin 2) * 256 + 1 * (y 1).val = (y 1).val; rw [h1]; omega

/-- The squared norms' window's block, read along its one row, is the representatives' squared norms. -/
theorem norms_block (c : Dev nD) (t : Fin cfg0.N) :
    (fun q : Fin 256 => (iblk m c 6 t : Vec Ideal S1x256 .f32) (ix2 (0 : Fin 1) q)) = normSq (m ((c : Thread nD τ).loc main_arg5)) := by
  obtain ⟨-, -, -, -, -, -, -, -, -, -, h0, h1, -⟩ := idx_facts t
  funext q
  refine Eq.trans ?_ (V_norms_apply m c q)
  show (iblk m c 6 t : Vec Ideal S1x256 .f32) (ix2 (0 : Fin 1) q) = _
  unfold iblk
  rw [View.read_apply]
  show (V m c main_v2 : S1x256.Idx → EReal) _ = _
  refine congrArg _ (funext fun a => Fin.ext ?_)
  match a with
  | ⟨0, _⟩ => show win0_6.index t (0 : Fin 2) * 1 + 1 * 0 = 0; rw [h0]
  | ⟨1, _⟩ => show win0_6.index t (1 : Fin 2) * 256 + 1 * q.val = q.val; rw [h1]; omega

/-! ## What each point writes back -/

/-- Point `t` writes back, into the weighted distances, columns `512·t …` of the array of weights. -/
theorem flushed7_eq (c : Dev nD) (t : Fin cfg0.N) :
    (dats m 0 c).flushed 7 t = ((cfg0.win 7).blk t).view.read (Elt Ideal)
      (weightArr (m ((c : Thread nD τ).loc main_arg0)) (m ((c : Thread nD τ).loc main_arg1))
        (m ((c : Thread nD τ).loc main_arg2)) (m ((c : Thread nD τ).loc main_arg5))) := by
  obtain ⟨-, -, -, -, -, -, -, -, -, -, -, -, h0, h1, -⟩ := idx_facts t
  rw [Cert.KernelIdeal.ValueP.flushed7]
  funext y
  obtain ⟨k, p, rfl⟩ : ∃ (k : Fin 256) (p : Fin 512), y = ix2 k p := ⟨y 0, y 1, eq_ix2 y⟩
  have hlt : 512 * t.val + p.val < 8192 := by have := t.isLt; have hN : cfg0.N = 16 := N_0; omega
  have hx : (cfg0.win 7).xinj (grid0.coords t) (ix2 k p) = (ix2 k p : S256x512.Idx) :=
    funext fun a => Fin.ext (by match a with | ⟨0, _⟩ => rfl | ⟨1, _⟩ => rfl)
  have he : ((cfg0.win 7).blk t).view.emb (ix2 k p) = (ix2 k (⟨512 * t.val + p.val, hlt⟩ : Fin 8192) : S256x8192.Idx) := by
    funext a; apply Fin.ext
    match a with
    | ⟨0, _⟩ => show win0_7.index t (0 : Fin 2) * 256 + 1 * k.val = k.val; rw [h0]; omega
    | ⟨1, _⟩ => show win0_7.index t (1 : Fin 2) * 512 + 1 * p.val = 512 * t.val + p.val; rw [h1]; omega
  rw [View.read_apply]
  show out0_7 (iblk m c 0 t) (iblk m c 1 t) (iblk m c 2 t) (iblk m c 3 t) (iblk m c 4 t) (iblk m c 5 t) (iblk m c 6 t)
      ((cfg0.win 7).xinj (grid0.coords t) (ix2 k p)) = weightArr _ _ _ _ (((cfg0.win 7).blk t).view.emb (ix2 k p))
  rw [hx, he]
  refine (out7_apply (iblk m c 0 t) (iblk m c 1 t) (iblk m c 2 t) (iblk m c 3 t) (iblk m c 4 t) (iblk m c 5 t) (iblk m c 6 t) k p).trans ?_
  show _ = weightRow (distRow (embRow (rowOf (m ((c : Thread nD τ).loc main_arg0) : S8192x2048.Idx → EReal) (⟨512 * t.val + p.val, hlt⟩ : Fin 8192))
      (m ((c : Thread nD τ).loc main_arg1)) (m ((c : Thread nD τ).loc main_arg2))) (m ((c : Thread nD τ).loc main_arg5)) (normSq (m ((c : Thread nD τ).loc main_arg5)))) k
  rw [xblock_row m c t p ⟨512 * t.val + p.val, hlt⟩ rfl, wenc_block, benc_block, reps_block, norms_block]

/-- Point `t` writes back, into the reconstruction, rows `512·t …` of the array of decoded rows. -/
theorem flushed8_eq (c : Dev nD) (t : Fin cfg0.N) :
    (dats m 0 c).flushed 8 t = ((cfg0.win 8).blk t).view.read (Elt Ideal)
      (reconArr (m ((c : Thread nD τ).loc main_arg0)) (m ((c : Thread nD τ).loc main_arg1))
        (m ((c : Thread nD τ).loc main_arg2)) (m ((c : Thread nD τ).loc main_arg3)) (m ((c : Thread nD τ).loc main_arg4))) := by
  obtain ⟨-, -, -, -, -, -, -, -, -, -, -, -, -, -, h0, h1⟩ := idx_facts t
  rw [Cert.KernelIdeal.ValueP.flushed8]
  funext y
  obtain ⟨p, j, rfl⟩ : ∃ (p : Fin 512) (j : Fin 2048), y = ix2 p j := ⟨y 0, y 1, eq_ix2 y⟩
  have hlt : 512 * t.val + p.val < 8192 := by have := t.isLt; have hN : cfg0.N = 16 := N_0; omega
  have hx : (cfg0.win 8).xinj (grid0.coords t) (ix2 p j) = (ix2 p j : S512x2048.Idx) :=
    funext fun a => Fin.ext (by match a with | ⟨0, _⟩ => rfl | ⟨1, _⟩ => rfl)
  have he : ((cfg0.win 8).blk t).view.emb (ix2 p j) = (ix2 (⟨512 * t.val + p.val, hlt⟩ : Fin 8192) j : S8192x2048.Idx) := by
    funext a; apply Fin.ext
    match a with
    | ⟨0, _⟩ => show win0_8.index t (0 : Fin 2) * 512 + 1 * p.val = 512 * t.val + p.val; rw [h0]; omega
    | ⟨1, _⟩ => show win0_8.index t (1 : Fin 2) * 2048 + 1 * j.val = j.val; rw [h1]; omega
  rw [View.read_apply]
  show out0_8 (iblk m c 0 t) (iblk m c 1 t) (iblk m c 2 t) (iblk m c 3 t) (iblk m c 4 t) (iblk m c 5 t) (iblk m c 6 t)
      ((cfg0.win 8).xinj (grid0.coords t) (ix2 p j)) = reconArr _ _ _ _ _ (((cfg0.win 8).blk t).view.emb (ix2 p j))
  rw [hx, he]
  refine (out8_apply (iblk m c 0 t) (iblk m c 1 t) (iblk m c 2 t) (iblk m c 3 t) (iblk m c 4 t) (iblk m c 5 t) (iblk m c 6 t) p j).trans ?_
  show _ = reconRow (embRow (rowOf (m ((c : Thread nD τ).loc main_arg0) : S8192x2048.Idx → EReal) (⟨512 * t.val + p.val, hlt⟩ : Fin 8192))
      (m ((c : Thread nD τ).loc main_arg1)) (m ((c : Thread nD τ).loc main_arg2))) (m ((c : Thread nD τ).loc main_arg3)) (m ((c : Thread nD τ).loc main_arg4)) j
  rw [xblock_row m c t p ⟨512 * t.val + p.val, hlt⟩ rfl, wenc_block, benc_block, bdec_block]
  exact congrArg (fun W => reconRow _ W _ j) (wdec_block m c t)

/-! ## The blocks tile the arrays -/

/-- An index of the weighted distances is in point `t`'s block iff each coordinate is in the block's range. -/
theorem mem_blk7 (t : Fin cfg0.N) (i : S256x8192.Idx) :
    i ∈ ((cfg0.win 7).blk t).view.set ↔ ∀ a : Fin 2, win0_7.index t a * S256x512.size a ≤ (i a).val
      ∧ (i a).val < win0_7.index t a * S256x512.size a + S256x512.size a := by
  show i ∈ ((View.whole main_v4_0).slice (win0_7.rect t)).set ↔ _
  rw [View.set_slice_whole, Rect.mem_set_unit]
  exact Iff.rfl

/-- Column `b` of the weighted distances lies in the block of point `b / 512`. -/
theorem cover7 (i : S256x8192.Idx) : ∃ t : Fin cfg0.N, (cfg0.win 7).flush t = true ∧ i ∈ ((cfg0.win 7).blk t).view.set := by
  have hi0 : (i 0).val < 256 := (i 0).isLt
  have hi1 : (i 1).val < 8192 := (i 1).isLt
  have hN : cfg0.N = 16 := N_0
  obtain ⟨t, ht⟩ : ∃ t : Fin cfg0.N, t.val = (i 1).val / 512 := ⟨⟨(i 1).val / 512, by rw [hN]; omega⟩, rfl⟩
  obtain ⟨-, -, -, -, -, -, -, -, -, -, -, -, h0, h1, -⟩ := idx_facts t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    rw [h0]; omega
  | ⟨1, _⟩ =>
    show win0_7.index t (1 : Fin 2) * 512 ≤ (i 1).val ∧ (i 1).val < win0_7.index t (1 : Fin 2) * 512 + 512
    rw [h1, ht]; omega

/-- An index of the reconstruction is in point `t`'s block iff each coordinate is in the block's range. -/
theorem mem_blk8 (t : Fin cfg0.N) (i : S8192x2048.Idx) :
    i ∈ ((cfg0.win 8).blk t).view.set ↔ ∀ a : Fin 2, win0_8.index t a * S512x2048.size a ≤ (i a).val
      ∧ (i a).val < win0_8.index t a * S512x2048.size a + S512x2048.size a := by
  show i ∈ ((View.whole main_v4_1).slice (win0_8.rect t)).set ↔ _
  rw [View.set_slice_whole, Rect.mem_set_unit]
  exact Iff.rfl

/-- Row `b` of the reconstruction lies in the block of point `b / 512`. -/
theorem cover8 (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, -, h0, h1⟩ := idx_facts t
  refine ⟨t, flush0_8 t, ?_⟩
  rw [mem_blk8]
  intro a
  match a with
  | ⟨0, _⟩ =>
    show win0_8.index t (0 : Fin 2) * 512 ≤ (i 0).val ∧ (i 0).val < win0_8.index t (0 : Fin 2) * 512 + 512
    rw [h0, ht]; omega
  | ⟨1, _⟩ =>
    show win0_8.index t (1 : Fin 2) * 2048 ≤ (i 1).val ∧ (i 1).val < win0_8.index t (1 : Fin 2) * 2048 + 2048
    rw [h1]; omega

/-! ## The arrays after the run -/

/-- The weighted distances end as the array of weights of the argument arrays. -/
theorem final7 (c : Dev nD) : (dats m 0 c).arrAt 7 cfg0.N
    = weightArr (m ((c : Thread nD τ).loc main_arg0)) (m ((c : Thread nD τ).loc main_arg1))
        (m ((c : Thread nD τ).loc main_arg2)) (m ((c : Thread nD τ).loc main_arg5)) :=
  (dats m 0 c).arrAt_eq_of_cover 7 _ (fun t _ => flushed7_eq m c t) cover7

/-- The reconstruction ends as the array of decoded rows of the argument arrays. -/
theorem final8 (c : Dev nD) : (dats m 0 c).arrAt 8 cfg0.N
    = reconArr (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 8 _ (fun t _ => flushed8_eq m c t) cover8

/-- The kernel's run: both result arrays at their functions of the arguments, the arguments unchanged. -/
theorem run : θ_run defs (onTc (τ := τ) (main (F := Ideal))) ⟨m, fun _ => 0, ρ⟩ fun r => ∀ c : Dev nD,
      r.2.mem ((c : Thread nD τ).loc main_v4_0) = weightArr (m ((c : Thread nD τ).loc main_arg0)) (m ((c : Thread nD τ).loc main_arg1))
          (m ((c : Thread nD τ).loc main_arg2)) (m ((c : Thread nD τ).loc main_arg5))
      ∧ r.2.mem ((c : Thread nD τ).loc main_v4_1) = reconArr (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2.1.trans (final8 m c), (h c).2.2⟩)
    (Cert.KernelIdeal.ValueP.run_blocks m ρ)

end Cert.KernelIdeal.Blocks

end
-- ==== Proof.RefRows.lean ====
/-
  What the reference computes, read one row at a time.

  The reference is a straight line of host operations on whole arrays.  Read at an index through the generated
  one-operation-at-a-time lemmas, its stages are the row formulas of RowSpec applied to row b of x: the encoder product
  plus bias at (b, k) is entry k of the encoded row; the decoder product plus bias at (b, j) entry j of the decoded row;
  the three terms of the expanded squared distance at (b, k) — the row's squared norm, twice the product with the
  transposed representatives, the representatives' squared norms — are those of distRow (each host sum starts from a
  zero, which adds nothing); the transposed array at (k, b) is the same distance; the host's minimum and sum down
  column b of the transposed array are the row's minimum and the row's sum of exponentials; and the final product at
  (k, b) is weight k of row b.
-/
import proofs.«116325_j31370441130520_2_alg».proof.Proof.Gen.ReferenceIdeal.Read
import proofs.«116325_j31370441130520_2_alg».proof.Proof.RowSpec
import proofs.«116325_j31370441130520_2_alg».proof.Proof.LibRowMin
import Idealize.ShloMosaic.PureOps.Ideal.Laws
import Idealize.ShloMosaic.Lib.ValueIdx

noncomputable section

namespace Cert.ReferenceIdeal.Rows

open Cert.ReferenceIdeal Cert.ReferenceIdeal.Read Cert.ClusterRows Idealize.ShloMosaic Idealize.ShloMosaic.ValueIdx

/-- Two indices of a rank-2 shape with the same coordinates are equal. -/
local macro "same_ix2" : tactic =>
  `(tactic| exact funext fun a => Fin.ext (by match a with | ⟨0, _⟩ => rfl | ⟨1, _⟩ => rfl))
/-- Two indices of a rank-1 shape with the same coordinate are equal. -/
local macro "same_ix1" : tactic =>
  `(tactic| exact funext fun a => Fin.ext (by match a with | ⟨0, _⟩ => rfl))

variable (x0 : (⟨S8192x2048, .f32⟩ : BufTy).Contents (Elt Ideal)) (x1 : (⟨S2048x256, .f32⟩ : BufTy).Contents (Elt Ideal))
  (x2 : (⟨S256, .f32⟩ : BufTy).Contents (Elt Ideal)) (x3 : (⟨S256x2048, .f32⟩ : BufTy).Contents (Elt Ideal))
  (x4 : (⟨S2048, .f32⟩ : BufTy).Contents (Elt Ideal)) (x5 : (⟨S256x256, .f32⟩ : BufTy).Contents (Elt Ideal))

/-- The zero a host sum starts from. -/
theorem zero_word : FloatOps.ofBits (F := Ideal) .f32 0x00000000#32 = (0 : EReal) := Ideal.ofBits_zero_f32

/-- The encoder stage at (b, k) is entry k of the encoded row b. -/
theorem enc_apply (b : Fin 8192) (k : Fin 256) :
    val_main_v3 (F := Ideal) x0 x1 x2 (ix2 b k) = embRow (rowOf x0 b) x1 x2 k := by
  rw [val_main_v3_apply, val_main_v0_apply, val_main_v2_apply, val_main_v1_apply]
  unfold embRow
  show (_ : EReal) + _ = _ + _
  refine congr (congrArg HAdd.hAdd (Finset.sum_congr rfl fun d _ => ?_)) ?_
  · exact congr (congrArg HMul.hMul (congrArg x0 (by same_ix2))) (congrArg x1 (by same_ix2))
  · exact congrArg x2 (by same_ix1)

/-- The reconstruction stage at (b, j) is entry j of the decoded row b. -/
theorem recon_apply (b : Fin 8192) (j : Fin 2048) :
    val_main_v7 (F := Ideal) x0 x1 x2 x3 x4 (ix2 b j) = reconRow (embRow (rowOf x0 b) x1 x2) x3 x4 j := by
  rw [val_main_v7_apply, val_main_v4_apply, val_main_v6_apply, val_main_v5_apply]
  unfold reconRow
  show (_ : EReal) + _ = _ + _
  refine congr (congrArg HAdd.hAdd (Finset.sum_congr rfl fun k _ => ?_)) ?_
  · refine congr (congrArg HMul.hMul ?_) (congrArg x3 (by same_ix2))
    rw [show lidx_main_v4 (ix2 b j) k = ix2 b k by same_ix2]
    exact enc_apply x0 x1 x2 b k
  · exact congrArg x4 (by same_ix1)

/-- The row's squared norm: the host's sum over k of the squares at (b, k), started from zero. -/
theorem sqnorm_apply (b : Fin 8192) :
    val_main_v9 (F := Ideal) x0 x1 x2 (ix1 b)
      = ∑ q : Fin 256, embRow (rowOf x0 b) x1 x2 q * embRow (rowOf x0 b) x1 x2 q := by
  rw [val_main_v9_apply, val_main_cst_apply, zero_word, zero_add]
  refine Finset.sum_congr rfl fun q _ => ?_
  rw [val_main_v8_apply, show idx_main_v9 (ix1 b) q = ix2 b q by same_ix2, enc_apply]
  rfl

/-- The product with the transposed representatives at (b, k): the sum over q of e_q · C(k, q). -/
theorem cross_apply (b : Fin 8192) (k : Fin 256) :
    val_main_v12 (F := Ideal) x0 x1 x2 x5 (ix2 b k) = ∑ q : Fin 256, embRow (rowOf x0 b) x1 x2 q * x5 (ix2 k q) := by
  rw [val_main_v12_apply]
  refine Finset.sum_congr rfl fun q _ => ?_
  rw [show lidx_main_v12 (ix2 b k) q = ix2 b q by same_ix2, enc_apply, val_main_v11_apply]
  exact congrArg (embRow (rowOf x0 b) x1 x2 q * ·) (congrArg x5 (by same_ix2))

/-- The representatives' squared norms: the host's sum along row k of C·C, started from zero. -/
theorem norms_apply (k : Fin 256) : val_main_v18 (F := Ideal) x5 (ix1 k) = normSq x5 k := by
  rw [val_main_v18_apply, val_main_cst_1_apply, zero_word, zero_add]
  unfold normSq
  refine Finset.sum_congr rfl fun q _ => ?_
  rw [val_main_v17_apply, show idx_main_v18 (ix1 k) q = ix2 k q by same_ix2]
  rfl

/-- The squared distances at (b, k): those of the encoded row b. -/
theorem dist_apply (b : Fin 8192) (k : Fin 256) :
    val_main_v21 (F := Ideal) x0 x1 x2 x5 (ix2 b k) = distRow (embRow (rowOf x0 b) x1 x2) x5 (normSq x5) k := by
  rw [val_main_v21_apply, val_main_v16_apply, val_main_v15_apply, val_main_v10_apply, val_main_v14_apply, val_main_v13_apply,
    val_main_cst_0_apply, val_main_v20_apply, val_main_v19_apply]
  rw [show idx_main_v10 (idx_main_v15 (ix2 b k)) = ix1 b by same_ix1, sqnorm_apply, cross_apply,
    show idx_main_v19 (idx_main_v20 (ix2 b k)) = ix1 k by same_ix1, norms_apply]
  rfl

/-- The transposed distances at (k, b). -/
theorem distT_apply (k : Fin 256) (b : Fin 8192) :
    val_main_v22 (F := Ideal) x0 x1 x2 x5 (ix2 k b) = distRow (embRow (rowOf x0 b) x1 x2) x5 (normSq x5) k := by
  rw [val_main_v22_apply, show idx_main_v22 (ix2 k b) = ix2 b k by same_ix2]
  exact dist_apply x0 x1 x2 x5 b k

/-- The host's minimum down column b of the transposed distances is the least distance of row b, from +∞. -/
theorem min_apply (b : Fin 8192) :
    val_main_v23 (F := Ideal) x0 x1 x2 x5 (ix1 b) = rowMin (distRow (embRow (rowOf x0 b) x1 x2) x5 (normSq x5)) := by
  unfold val_main_v23
  refine (Cert.LibRowMin.hostColMin_apply _ _ _ (by decide) _ b).trans ?_
  unfold rowMin
  exact congrArg (Finset.fold min posInf · (Finset.univ : Finset (Fin 256))) (funext fun k => distT_apply x0 x1 x2 x5 k b)

/-- The exponentials at (k, b). -/
theorem exp_apply (k : Fin 256) (b : Fin 8192) :
    val_main_v29 (F := Ideal) x0 x1 x2 x5 (ix2 k b) = expRow (distRow (embRow (rowOf x0 b) x1 x2) x5 (normSq x5)) k := by
  rw [val_main_v29_apply, val_main_v28_apply, val_main_v27_apply, val_main_cst_3_apply, val_main_v26_apply, val_main_v25_apply,
    val_main_v24_apply, distT_apply, show idx_main_v24 (idx_main_v25 (ix2 k b)) = ix1 b by same_ix1, min_apply]
  rfl

/-- The host's sum down column b of the exponentials is the row's sum, started from zero. -/
theorem sum_apply (b : Fin 8192) :
    val_main_v30 (F := Ideal) x0 x1 x2 x5 (ix1 b) = ∑ q : Fin 256, expRow (distRow (embRow (rowOf x0 b) x1 x2) x5 (normSq x5)) q := by
  rw [val_main_v30_apply, val_main_cst_4_apply, zero_word, zero_add]
  refine Finset.sum_congr rfl fun q _ => ?_
  rw [show idx_main_v30 (ix1 b) q = ix2 q b by same_ix2]
  exact exp_apply x0 x1 x2 x5 q b

/-- The weighted distances at (k, b). -/
theorem weight_apply (k : Fin 256) (b : Fin 8192) :
    val_main_v34 (F := Ideal) x0 x1 x2 x5 (ix2 k b) = weightRow (distRow (embRow (rowOf x0 b) x1 x2) x5 (normSq x5)) k := by
  rw [val_main_v34_apply, val_main_v33_apply, val_main_v32_apply, val_main_v31_apply, distT_apply, exp_apply,
    show idx_main_v31 (idx_main_v32 (ix2 k b)) = ix1 b by same_ix1, sum_apply]
  rfl

/-! ## The two results as arrays -/

/-- The reference's reconstruction is the array of decoded rows. -/
theorem recon_eq : val_main_v7 (F := Ideal) x0 x1 x2 x3 x4 = reconArr x0 x1 x2 x3 x4 := by
  funext i
  obtain ⟨b, j, rfl⟩ : ∃ (b : Fin 8192) (j : Fin 2048), i = ix2 b j := ⟨i 0, i 1, eq_ix2 i⟩
  exact recon_apply x0 x1 x2 x3 x4 b j

/-- The reference's weighted distances are the array of weights. -/
theorem weight_eq : val_main_v34 (F := Ideal) x0 x1 x2 x5 = weightArr x0 x1 x2 x5 := by
  funext i
  obtain ⟨k, b, rfl⟩ : ∃ (k : Fin 256) (b : Fin 8192), i = ix2 k b := ⟨i 0, i 1, eq_ix2 i⟩
  exact weight_apply x0 x1 x2 x5 k b

end Cert.ReferenceIdeal.Rows

end
-- ==== Proof.lean ====
/-
  The kernel against its reference, on the extended reals.

  Both programs take x [8192, 2048], W_enc, b_enc, W_dec, b_dec and the cluster representatives C [256, 256], and return
  the weighted distances [256, 8192] and the reconstruction [8192, 2048].  Row by row (Proof/RowSpec.lean): a row of x
  is encoded, the encoded row is decoded, its squared distances to the representatives are formed in the expanded
  form (‖e‖² − 2⟨e, c_k⟩) + ‖c_k‖², and the distances are weighted by their soft minimum at scale 1000.

  The kernel does this for 512 rows at each of 16 grid points, with the squared norms ‖c_k‖² and the narrowed W_dec
  prepared by the host, and stores the weights transposed (Proof/KernelRows.lean, Proof/KernelBlocks.lean); the reference
  does it with whole-array host operations, transposing the distances before the minimum and the sums
  (Proof/RefRows.lean).  At the ideal values a change of float format is the identity, a matrix product is the plain
  sum of products on either side, a lane reduction and a host reduction are the same sum or the same fold of min, and
  the kernel's exp and quotient are the host's.  So both results are the same functions of the arguments, index by index;
  no law that needs finite operands is used, and the precondition is not opened.

  The three frames are the generated ones (the reference's is its generated run with the results dropped); the
  idealization rewrote nothing, so `preserves` is `True`.
-/
import proofs.«116325_j31370441130520_2_alg».proof.Defs
import proofs.«116325_j31370441130520_2_alg».proof.Proof.Gen.Kernel
import proofs.«116325_j31370441130520_2_alg».proof.Proof.Gen.Kernel.Skeleton
import proofs.«116325_j31370441130520_2_alg».proof.Proof.Gen.Kernel.Launch
import proofs.«116325_j31370441130520_2_alg».proof.Proof.Gen.Kernel.Points
import proofs.«116325_j31370441130520_2_alg».proof.Proof.Gen.Kernel.Frame
import proofs.«116325_j31370441130520_2_alg».proof.Proof.Gen.KernelIdeal
import proofs.«116325_j31370441130520_2_alg».proof.Proof.Gen.KernelIdeal.Skeleton
import proofs.«116325_j31370441130520_2_alg».proof.Proof.Gen.KernelIdeal.Launch
import proofs.«116325_j31370441130520_2_alg».proof.Proof.Gen.KernelIdeal.Points
import proofs.«116325_j31370441130520_2_alg».proof.Proof.Gen.KernelIdeal.Frame
import proofs.«116325_j31370441130520_2_alg».proof.Proof.Gen.ReferenceIdeal
import proofs.«116325_j31370441130520_2_alg».proof.Proof.Gen.Pre_finite_inputs
import proofs.«116325_j31370441130520_2_alg».proof.Proof.ValuePatched
import proofs.«116325_j31370441130520_2_alg».proof.Proof.Gen.ReferenceIdeal.Run
import proofs.«116325_j31370441130520_2_alg».proof.Proof.Gen.ReferenceIdeal.Read
import proofs.«116325_j31370441130520_2_alg».proof.Proof.KernelBlocks
import proofs.«116325_j31370441130520_2_alg».proof.Proof.RefRows
import Idealize.ShloMosaic.Adequacy
import Idealize.ShloMosaic.Init

noncomputable section

namespace Cert.Proof

open Idealize.ShloMosaic Idealize.ShloMosaic.TcCoe Idealize.SL.Sem Cert.ClusterRows

theorem frame_kernel : Cert.frame_Kernel := fun m ρ _ => Cert.Kernel.Gen.frame m ρ

theorem frame_kernel_ideal : Cert.frame_KernelIdeal := fun m ρ _ => Cert.KernelIdeal.Gen.frame m ρ

/-- The reference's run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with the weighted distances at `weightArr` and the
    reconstruction at `reconArr` of the arguments. -/
theorem algebraic : Cert.algebraic_KernelIdeal_ReferenceIdeal := by
  intro m ρ m' ρ' _ hagree
  refine ⟨fun c => weightArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg5)),
    fun c => reconArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Blocks.run m ρ, ?_⟩
  refine (θ_run Cert.ReferenceIdeal.defs _ _).mono (fun _ h c => ?_) (Cert.ReferenceIdeal.Value.run (F := Ideal) m' ρ')
  obtain ⟨h0, h1, hrest⟩ := h c
  obtain ⟨a0, a1, a2, a3, a4, a5⟩ := hagree c
  refine ⟨h0.trans ?_, h1.trans ?_, hrest⟩
  · rw [Cert.ReferenceIdeal.Read.val_main_v34_eq, Cert.ReferenceIdeal.Rows.weight_eq, a0, a1, a2, a5]
  · rw [Cert.ReferenceIdeal.Read.val_main_v7_eq, Cert.ReferenceIdeal.Rows.recon_eq, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
